-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S2048x1 : Shape := ⟨2, ![2048, 1]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x1 : S_.BroadcastsInDim S2048x1 (![] : Fin 0 → Fin S2048x1.rank)
  reducesTo_S2048x1_S_d0_1 : S2048x1.ReducesTo [0, 1] S_

variable [Facts]

def fn_part1 {F : FTy → Type} [FloatOps F] (main_arg4 : FVec F S2048x1 .f32) (main_v13 : IVec S_ 1) (main_v16 : IVec S2048x1 1) : IVec S_ 1 :=
  let main_c_5 : IVec S_ 1 := constantI S_ 1 1#1
  let main_v17 : IVec S_ 1 := (fun x v => Host.reduce IntOp.andi x v reducesTo_S2048x1_S_d0_1 h_S_) main_v16 main_c_5
  let main_v18 : IVec S_ 1 := andi main_v13 main_v17
  let main_v19 : FVec F S2048x1 .f32 := Host.absf main_arg4
  let main_cst_6 : FVec F S_ .f32 := constant S_ .f32 0x7F800000#32
  let main_v20 : FVec F S2048x1 .f32 := broadcastInDim S2048x1 ![] bcast_S_S2048x1 main_cst_6
  let main_v21 : IVec S2048x1 1 := cmpf .olt main_v19 main_v20
  let main_c_7 : IVec S_ 1 := constantI S_ 1 1#1
  let main_v22 : IVec S_ 1 := (fun x v => Host.reduce IntOp.andi x v reducesTo_S2048x1_S_d0_1 h_S_) main_v21 main_c_7
  let main_v23 : IVec S_ 1 := andi main_v18 main_v22
  main_v23

def fn {F : FTy → Type} [FloatOps F] (main_arg0 : FVec F S4x4096x2048 .f32) (main_arg1 : FVec F S2048x2048 .f32) (main_arg2 : FVec F S2048 .f32) (main_arg3 : FVec F S2048x1 .f32) (main_arg4 : FVec F S2048x1 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1 .f32 := Host.absf main_arg3
  let main_cst_4 : FVec F S_ .f32 := constant S_ .f32 0x7F800000#32
  let main_v15 : FVec F S2048x1 .f32 := broadcastInDim S2048x1 ![] bcast_S_S2048x1 main_cst_4
  let main_v16 : IVec S2048x1 1 := cmpf .olt main_v14 main_v15
  fn_part1 (F := F) main_arg4 main_v13 main_v16
-- ==== Kernel.lean ====
abbrev S4x4096x2048 : Shape := ⟨3, ![4, 4096, 2048]⟩
abbrev S2048x2048 : Shape := ⟨2, ![2048, 2048]⟩
abbrev S2048 : Shape := ⟨1, ![2048]⟩
abbrev S2048x1 : Shape := ⟨2, ![2048, 1]⟩
abbrev S256x2048 : Shape := ⟨2, ![256, 2048]⟩
abbrev S256x1 : Shape := ⟨2, ![256, 1]⟩
abbrev S16384x2048 : Shape := ⟨2, ![16384, 2048]⟩
abbrev S1x2048 : Shape := ⟨2, ![1, 2048]⟩
abbrev S512x2048 : Shape := ⟨2, ![512, 2048]⟩

abbrev nBuf : Space → Nat
  | .hbm => 10
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048x1, .f32⟩
  | .hbm, ⟨4, _⟩ => ⟨S2048x1, .f32⟩
  | .hbm, ⟨5, _⟩ => ⟨S2048x2048, .bf16⟩
  | .hbm, ⟨6, _⟩ => ⟨S16384x2048, .f32⟩
  | .hbm, ⟨7, _⟩ => ⟨S1x2048, .f32⟩
  | .hbm, ⟨8, _⟩ => ⟨S16384x2048, .f32⟩
  | .hbm, ⟨9, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x2048, .bf16⟩
  | .local _ .vmem, ⟨7, _⟩ => ⟨S256x2048, .bf16⟩
  | .local _ .vmem, ⟨8, _⟩ => ⟨S512x2048, .f32⟩
  | .local _ .vmem, ⟨9, _⟩ => ⟨S512x2048, .f32⟩
  | .local _ .vmem, ⟨10, _⟩ => ⟨S2048x2048, .bf16⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S256x2048_S256x2048_0_0 : ∀ a, (![0, 0] : Fin 2 → Nat) a + S256x2048.size a ≤ S256x2048.size a
  h_S256x2048 : 0 < S256x2048.numel
  inb_S256x1_S256x1_0_0 : ∀ a, (![0, 0] : Fin 2 → Nat) a + S256x1.size a ≤ S256x1.size a
  h_S256x1 : 0 < S256x1.numel
  broadcasts_S256x1_S256x2048 : S256x1.Broadcasts S256x2048
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  shapeCasts_S4x4096x2048_S16384x2048 : S4x4096x2048.ShapeCasts S16384x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S4x4096x2048 : S16384x2048.ShapeCasts S4x4096x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .f32 = 32 ∨ (Rect.block (s := S2048x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S16384x2048.size a
  hwx1_3 : ∀ i : grid1.Coords, EltTy.bits .f32 = 32 ∨ (Rect.block (s := S16384x2048) S512x2048.size (cc1_transform_3 i) (hinb1_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S2048x1 : Shape := ⟨2, ![2048, 1]⟩
abbrev S_ : Shape := ⟨0, ![]⟩
abbrev S1x1x2048 : Shape := ⟨3, ![1, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048x1, .f32⟩
  | .hbm, ⟨4, _⟩ => ⟨S2048x1, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S4x4096x2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_cst_0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]

class Facts₀ : Prop where
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.Spec.lean ====
/-
  The function both programs compute, over the extended reals.

  A weight matrix W [2048, 2048] is fake-quantized row by row: with the row's scale s and zero point z,
  an entry w becomes  s · (min(255, max(0, round(w / s + z))) − z),  the rounding to nearest with ties
  to even.  The result is the linear layer of the activations X [4, 4096, 2048] with that matrix and a
  bias B [2048]:  out(b, t, o) = Σ_k X(b, t, k) · Q(o, k) + B(o).
-/
import Idealize.ShloMosaic.PureOps.Ideal
import Idealize.ShloMosaic.Lib.ValueIdx

noncomputable section

namespace Cert.Spec

open Idealize.ShloMosaic Idealize.ShloMosaic.ValueIdx

/-- One entry fake-quantized: divide by the scale, shift by the zero point, round to nearest even,
    clamp into [0, 255], shift back, multiply by the scale. -/
def quant (w s z : EReal) : EReal :=
  s * (min (Ideal.ofBits .f32 0x437F0000#32)
        (max (Ideal.ofBits .f32 0x00000000#32) (Ideal.liftRound Ideal.roundHalfEven (Ideal.div w s + z))) - z)

/-- Entry (o, k) of the fake-quantized weight: row o's scale and zero point are its column vectors' entries (o, 0). -/
def dqAt (W : (⟨2, ![2048, 2048]⟩ : Shape).Idx → EReal) (S Z : (⟨2, ![2048, 1]⟩ : Shape).Idx → EReal)
    (o k : Fin 2048) : EReal :=
  quant (W (ix2 o k)) (S (ix2 o (0 : Fin 1))) (Z (ix2 o (0 : Fin 1)))

/-- The fake-quantized weight as an array. -/
def dqArr (W : (⟨2, ![2048, 2048]⟩ : Shape).Idx → EReal) (S Z : (⟨2, ![2048, 1]⟩ : Shape).Idx → EReal) :
    (⟨2, ![2048, 2048]⟩ : Shape).Idx → EReal :=
  fun i => dqAt W S Z (i 0) (i 1)

/-- Entry (b, t, o) of the linear layer: row (b, t) of the activations against row o of the quantized weight, plus the bias. -/
def outAt (X : (⟨3, ![4, 4096, 2048]⟩ : Shape).Idx → EReal) (W : (⟨2, ![2048, 2048]⟩ : Shape).Idx → EReal)
    (B : (⟨1, ![2048]⟩ : Shape).Idx → EReal) (S Z : (⟨2, ![2048, 1]⟩ : Shape).Idx → EReal)
    (b : Fin 4) (t : Fin 4096) (o : Fin 2048) : EReal :=
  (∑ k : Fin 2048, X (ix3 b t k) * dqAt W S Z o k) + B (ix1 o)

/-- The linear layer's result as an array. -/
def out (X : (⟨3, ![4, 4096, 2048]⟩ : Shape).Idx → EReal) (W : (⟨2, ![2048, 2048]⟩ : Shape).Idx → EReal)
    (B : (⟨1, ![2048]⟩ : Shape).Idx → EReal) (S Z : (⟨2, ![2048, 1]⟩ : Shape).Idx → EReal) :
    (⟨3, ![4, 4096, 2048]⟩ : Shape).Idx → EReal :=
  fun i => outAt X W B S Z (i 0) (i 1) (i 2)

end Cert.Spec

end
-- ==== Proof.KRun.lean ====
/-
  The idealized kernel program's run with its result array named.

  The program is two kernel regions among three stretches of host operations.  The contents of the
  TensorCore's buffers at the boundaries between these five segments are a fold from the launch memory:
  after the first region its output array holds what the region's write-backs leave, the two reshapes
  before the second region are applied to that, the second region's output array again holds what its
  write-backs leave, and the last reshape is applied to that.  Every weakly fair execution ends with
  each unscoped buffer at the last of these contents; here the result buffer is read off beside the
  five argument arrays.
-/
import proofs.«112682_j22136261444314_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the
    last boundary's contents and the argument arrays as launched. -/
theorem run : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Out

end
-- ==== Proof.Region0.lean ====
/-
  The first kernel region: the fake-quantized weight.

  The region's grid has 8 points; point t works on rows 256·t … 256·t + 255 of the weight, together with
  the same rows of the scale and zero-point columns, and writes those rows of the result.  Its body is a
  pointwise expression of the loaded weight block and of the two columns broadcast along the rows' 2048
  entries, so what point t writes back is block t of ONE array: entry (o, k) is the entry (o, k) of the
  weight fake-quantized with row o's scale and zero point.  The 8 blocks tile the array.
-/
import proofs.«112682_j22136261444314_2_alg».proof.Proof.Gen.KernelIdeal.Frame
import proofs.«112682_j22136261444314_2_alg».proof.Proof.Spec
import Idealize.ShloMosaic.Lib.Pipeline.Value
import Idealize.ShloMosaic.Lib.ValueIdx

set_option maxRecDepth 16384

noncomputable section

namespace Cert.KernelIdeal.Quant

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The body's stored value at an entry: every operation is pointwise, so the entry is the scalar expression
    of the weight entry and of the two broadcast columns' entries there. -/
theorem pay_pointwise (x0 : Vec Ideal S256x2048 .f32) (x1 x2 : Vec Ideal S256x1 .f32) (j : S256x2048.Idx) :
    k0_pay1 (F := Ideal) x0 x1 x2 j
      = Spec.quant (x0 j) (broadcastTo S256x2048 x1 broadcasts_S256x1_S256x2048 j)
          (broadcastTo S256x2048 x2 broadcasts_S256x1_S256x2048 j) := rfl

/-- A [256, 1] column broadcast along 2048 entries reads, at (r, d), the column's entry (r, 0). -/
theorem col_bcast (v : Vec Ideal S256x1 .f32) (j : S256x2048.Idx) (j1 : S256x1.Idx)
    (h0 : (j1 0).val = (j 0).val) (h1 : (j1 1).val = 0) :
    broadcastTo S256x2048 v broadcasts_S256x1_S256x2048 j = v j1 :=
  broadcastTo_apply v broadcasts_S256x1_S256x2048 j j1 fun a => match a with
    | ⟨0, _⟩ => by
        show (j1 0).val = if (256 : Nat) = 1 then 0 else (j 0).val
        rw [if_neg (by decide), h0]
    | ⟨1, _⟩ => by
        show (j1 1).val = if (1 : Nat) = 1 then 0 else (j 1).val
        rw [if_pos rfl, h1]

/-- The stored value at entry (r, d) of the block: the weight block's entry fake-quantized with the entries (r, 0)
    of the scale and zero-point blocks. -/
theorem pay_at (x0 : Vec Ideal S256x2048 .f32) (x1 x2 : Vec Ideal S256x1 .f32) (j : S256x2048.Idx) (j1 : S256x1.Idx)
    (h0 : (j1 0).val = (j 0).val) (h1 : (j1 1).val = 0) :
    k0_pay1 (F := Ideal) x0 x1 x2 j = Spec.quant (x0 j) (x1 j1) (x2 j1) := by
  rw [pay_pointwise, col_bcast x1 j j1 h0 h1, col_bcast x2 j j1 h0 h1]

/-- The printed index maps over the grid: at point t every window's block index is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every block row is some point's. -/
theorem idx_onto : ∀ q : Fin 8, ∃ t : Fin cfg0.N, t.val = q.val :=
  (by decide +kernel : ∀ q : Fin 8, ∃ t : Fin grid0.N, t.val = q.val)

/-- The fake-quantized weight of the launch contents, as the contents of the region's output array. -/
abbrev dq (c : Dev nD) : Buf (Elt Ideal) ((c : Thread nD τ).loc main_v0) :=
  Spec.dqArr (m ((c : Thread nD τ).loc main_arg1)) (m ((c : Thread nD τ).loc main_arg3)) (m ((c : Thread nD τ).loc main_arg4))

/-- What point t writes back is block t of the fake-quantized weight. -/
theorem flushed_eq (c : Dev nD) (t : Fin cfg0.N) :
    (dat0 (V0 m ρ) c).flushed 3 t = ((cfg0.win 3).blk t).view.read (Elt Ideal) (dq m c) := by
  show (cfg0.win 3).cut (grid0.coords t) ((dat0 (V0 m ρ) c).after 3 t) = _
  rw [after0_3]
  unfold out0_3
  rw [View.canon_unit_zero hz]
  simp only [View.ld_unit_zero (S := S256x2048) hz, View.ld_unit_zero (S := S256x1) hz]
  obtain ⟨e00, e01, e10, e11, e20, e21, e30, e31⟩ := idx_facts t
  funext j
  have hj0 : (j 0).val < 256 := (j 0).isLt
  have hj1 : (j 1).val < 2048 := (j 1).isLt
  let j1 : S256x1.Idx := ix2 (⟨(j 0).val, hj0⟩ : Fin 256) (0 : Fin 1)
  show k0_pay1 (F := Ideal) (iblk0 (V0 m ρ) c 0 t) (iblk0 (V0 m ρ) c 1 t) (iblk0 (V0 m ρ) c 2 t) j
    = dq m c (((cfg0.win 3).blk t).view.emb j)
  refine (pay_at _ _ _ j j1 rfl rfl).trans ?_
  have h0 : ((cfg0.win 0).blk t).view.emb j
      = ix2 ((((cfg0.win 3).blk t).view.emb j) 0) ((((cfg0.win 3).blk t).view.emb j) 1) := by
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 2048 + 1 * (j 1).val = win0_3.index t (1 : Fin 2) * 2048 + 1 * (j 1).val; omega
  have h1 : ((cfg0.win 1).blk t).view.emb j1
      = ix2 ((((cfg0.win 3).blk t).view.emb j) 0) (0 : Fin 1) := by
    funext a; apply Fin.ext
    match a with
    | ⟨0, _⟩ => show win0_1.index t (0 : Fin 2) * 256 + 1 * (j 0).val = win0_3.index t (0 : Fin 2) * 256 + 1 * (j 0).val; omega
    | ⟨1, _⟩ => show win0_1.index t (1 : Fin 2) * 1 + 1 * 0 = 0; omega
  have h2 : ((cfg0.win 2).blk t).view.emb j1
      = ix2 ((((cfg0.win 3).blk t).view.emb j) 0) (0 : Fin 1) := by
    funext a; apply Fin.ext
    match a with
    | ⟨0, _⟩ => show win0_2.index t (0 : Fin 2) * 256 + 1 * (j 0).val = win0_3.index t (0 : Fin 2) * 256 + 1 * (j 0).val; omega
    | ⟨1, _⟩ => show win0_2.index t (1 : Fin 2) * 1 + 1 * 0 = 0; omega
  show Spec.quant (V0 m ρ c main_arg1 (((cfg0.win 0).blk t).view.emb j)) (V0 m ρ c main_arg3 (((cfg0.win 1).blk t).view.emb j1))
      (V0 m ρ c main_arg4 (((cfg0.win 2).blk t).view.emb j1))
    = Spec.quant (m ((c : Thread nD τ).loc main_arg1) (ix2 ((((cfg0.win 3).blk t).view.emb j) 0) ((((cfg0.win 3).blk t).view.emb j) 1)))
        (m ((c : Thread nD τ).loc main_arg3) (ix2 ((((cfg0.win 3).blk t).view.emb j) 0) (0 : Fin 1)))
        (m ((c : Thread nD τ).loc main_arg4) (ix2 ((((cfg0.win 3).blk t).view.emb j) 0) (0 : Fin 1)))
  rw [h0, h1, h2]
  rfl

/-- An index of the array is in point t's block iff each coordinate is in the block's range on its axis. -/
theorem mem_blk (t : Fin cfg0.N) (i : S2048x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v0).slice (win0_3.rect t)).set ↔ _
  rw [View.set_slice_whole, Rect.mem_set_unit]
  exact Iff.rfl

/-- The 8 blocks of 256 rows tile the array: row r is in block r / 256. -/
theorem cover (i : S2048x2048.Idx) :
    ∃ t : Fin cfg0.N, (cfg0.win 3).flush t = true ∧ i ∈ ((cfg0.win 3).blk t).view.set := by
  have hi0 : (i 0).val < 2048 := (i 0).isLt
  have hi1 : (i 1).val < 2048 := (i 1).isLt
  obtain ⟨t, ht⟩ := idx_onto ⟨(i 0).val / 256, by omega⟩
  have ht' : t.val = (i 0).val / 256 := ht
  obtain ⟨e00, e01, e10, e11, e20, e21, e30, e31⟩ := idx_facts t
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

/-- After the region its output array holds the fake-quantized weight. -/
theorem final (c : Dev nD) : (dat0 (V0 m ρ) c).arrAt 3 cfg0.N = dq m c :=
  (dat0 (V0 m ρ) c).arrAt_eq_of_cover 3 (dq m c) (fun t _ => flushed_eq m ρ c t) cover

end Cert.KernelIdeal.Quant

end
-- ==== Proof.Region1.lean ====
/-
  The second kernel region: the linear layer on the flattened activations.

  The region's grid has 32 points; point t works on rows 512·t … 512·t + 511 of the activations viewed as a
  [16384, 2048] matrix, with the whole [2048, 2048] weight and the whole [1, 2048] bias row, and writes those
  rows of the result.  Its body multiplies the block of activations by the transposed weight — entry (r, o) is
  Σ_k A(r, k) · D(o, k), accumulated from zero — and adds the bias row broadcast down the 512 rows.  So what
  point t writes back is block t of ONE array, entry (r, o) = Σ_k A(r, k) · D(o, k) + B(0, o), and the 32
  blocks tile the array.  Stated for any contents of the buffers at the region's entry.
-/
import proofs.«112682_j22136261444314_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Linear

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

local notation "dotK" => dot_S512x2048_S2048x2048_S512x2048_1_1_0_0_n_n

/-- The linear layer on matrices: entry (r, o) is row r of A against row o of D, plus the bias row's entry o. -/
def lin (A : S16384x2048.Idx → EReal) (D : S2048x2048.Idx → EReal) (B : S1x2048.Idx → EReal) : S16384x2048.Idx → EReal :=
  fun i => (∑ k : Fin 2048, A (ix2 (i 0) k) * D (ix2 (i 1) k)) + B (ix2 (0 : Fin 1) (i 1))

/-- The body's stored value: the identity reshapes dropped, it is the product into a zero accumulator plus the
    broadcast bias row (a change of float format is the identity on the extended reals). -/
theorem pay_eq (x0 : Vec Ideal S512x2048 .f32) (x1 : Vec Ideal S2048x2048 .bf16) (x2 : Vec Ideal S1x2048 .f32) :
    k1_pay1 (F := Ideal) x0 x1 x2
      = addf (matmul (φ₂ := .bf16) dotK none (truncf .bf16 x0 bitsLt_bf16_f32) x1 (constant S512x2048 .f32 0x00000000#32))
          (broadcastTo S512x2048 x2 broadcasts_S1x2048_S512x2048) := by
  unfold k1_pay1
  simp only [shapeCast_self]

theorem lhs_0 (i : S512x2048.Idx) (q : (dotK).contr.Idx) : ((dotK).lhsIdx i q 0).val = (i 0).val := by
  unfold DotDims.lhsIdx
  rw [dif_neg (show ¬(0 : Fin S512x2048.rank) ∈ (dotK).lhsBatch by decide), dif_pos (show (0 : Fin S512x2048.rank) ∈ (dotK).lhsNonContracting by decide)]
  rfl
theorem lhs_1 (i : S512x2048.Idx) (q : (dotK).contr.Idx) : ((dotK).lhsIdx i q 1).val = (q ⟨0, by decide⟩).val :=
  (dotK).lhsIdx_val_of_single rfl i q
theorem rhs_0 (i : S512x2048.Idx) (q : (dotK).contr.Idx) : ((dotK).rhsIdx i q 0).val = (i 1).val := by
  unfold DotDims.rhsIdx
  rw [dif_neg (show ¬(0 : Fin S2048x2048.rank) ∈ (dotK).rhsBatch by decide), dif_pos (show (0 : Fin S2048x2048.rank) ∈ (dotK).rhsNonContracting by decide)]
  rfl
theorem rhs_1 (i : S512x2048.Idx) (q : (dotK).contr.Idx) : ((dotK).rhsIdx i q 1).val = (q ⟨0, by decide⟩).val :=
  (dotK).rhsIdx_val_of_single rfl i q

/-- The product into a zero accumulator at (r, o): the sum over k of A(r, k) · D(o, k). -/
theorem matmul_at (a : FVec Ideal S512x2048 .bf16) (d : FVec Ideal S2048x2048 .bf16) (r : Fin 512) (o : Fin 2048) :
    matmul dotK none a d (constant S512x2048 .f32 0x00000000#32) (ix2 r o) = ∑ k : Fin 2048, a (ix2 r k) * d (ix2 o k) := by
  refine (Ideal.matmul_constant_zero_apply dotK none a d (ix2 r o)).trans ?_
  rw [← Equiv.sum_comp (ValueIdx.contrEquiv1 dotK 2048 rfl rfl).symm]
  refine Finset.sum_congr rfl fun k _ => ?_
  have hk := ValueIdx.contrEquiv1_symm_val dotK 2048 rfl rfl k
  have el : (dotK).lhsIdx (ix2 r o) ((ValueIdx.contrEquiv1 dotK 2048 rfl rfl).symm k) = ix2 r k := funext fun x => Fin.ext (by
    match x with
    | ⟨0, _⟩ => exact lhs_0 _ _
    | ⟨1, _⟩ => exact (lhs_1 _ _).trans hk)
  have er : (dotK).rhsIdx (ix2 r o) ((ValueIdx.contrEquiv1 dotK 2048 rfl rfl).symm k) = ix2 o k := funext fun x => Fin.ext (by
    match x with
    | ⟨0, _⟩ => exact rhs_0 _ _
    | ⟨1, _⟩ => exact (rhs_1 _ _).trans hk)
  rw [el, er]

/-- The stored value at entry (r, o) of the block. -/
theorem pay_at (x0 : Vec Ideal S512x2048 .f32) (x1 : Vec Ideal S2048x2048 .bf16) (x2 : Vec Ideal S1x2048 .f32) (r : Fin 512) (o : Fin 2048) :
    k1_pay1 (F := Ideal) x0 x1 x2 (ix2 r o) = (∑ k : Fin 2048, x0 (ix2 r k) * x1 (ix2 o k)) + x2 (ix2 (0 : Fin 1) o) := by
  rw [pay_eq]
  show matmul (F := Ideal) (φ₂ := .bf16) dotK none (truncf .bf16 x0 bitsLt_bf16_f32) x1 (constant S512x2048 .f32 0x00000000#32) (ix2 r o)
      + broadcastTo S512x2048 x2 broadcasts_S1x2048_S512x2048 (ix2 r o) = _
  rw [matmul_at, broadcastTo_1b_ab_apply x2 broadcasts_S1x2048_S512x2048 r o]
  rfl

/-- The printed index maps over the grid: at point t the activations' and the result's block index is (t, 0),
    the weight's and the bias row's is (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block row is some point's. -/
theorem idx_onto : ∀ q : Fin 32, ∃ t : Fin cfg1.N, t.val = q.val :=
  (by decide +kernel : ∀ q : Fin 32, ∃ t : Fin grid1.N, t.val = q.val)

/-- The linear layer of the region-entry contents, as the contents of the region's output array. -/
abbrev res (c : Dev nD) : Buf (Elt Ideal) ((c : Thread nD τ).loc main_v3) :=
  lin (V c main_v1) (V c main_v0) (V c main_v2)

/-- What point t writes back is block t of the linear layer's result. -/
theorem flushed_eq (c : Dev nD) (t : Fin cfg1.N) :
    (dat1 V c).flushed 3 t = ((cfg1.win 3).blk t).view.read (Elt Ideal) (res V c) := by
  show (cfg1.win 3).cut (grid1.coords t) ((dat1 V c).after 3 t) = _
  rw [after1_3]
  unfold out1_3
  rw [View.canon_unit_zero hz]
  simp only [View.ld_unit_zero (S := S512x2048) hz, View.ld_unit_zero (S := S2048x2048) hz, View.ld_unit_zero (S := S1x2048) hz]
  obtain ⟨e00, e01, e10, e11, e20, e21, e30, e31⟩ := idx_facts t
  funext j
  obtain ⟨r, o, rfl⟩ : ∃ (r : Fin 512) (o : Fin 2048), j = ix2 r o := ⟨j 0, j 1, eq_ix2 j⟩
  show k1_pay1 (F := Ideal) (iblk1 V c 0 t) (iblk1 V c 1 t) (iblk1 V c 2 t) (ix2 r o)
    = res V c (((cfg1.win 3).blk t).view.emb (ix2 r o))
  refine (pay_at _ _ _ r o).trans ?_
  have hr : r.val < 512 := r.isLt
  have ho : o.val < 2048 := o.isLt
  have h0 : ∀ k : Fin 2048, ((cfg1.win 0).blk t).view.emb (ix2 r k)
      = ix2 ((((cfg1.win 3).blk t).view.emb (ix2 r o)) 0) k := fun k => by
    funext a; apply Fin.ext
    match a with
    | ⟨0, _⟩ => show win1_0.index t (0 : Fin 2) * 512 + 1 * r.val = win1_3.index t (0 : Fin 2) * 512 + 1 * r.val; omega
    | ⟨1, _⟩ => show win1_0.index t (1 : Fin 2) * 2048 + 1 * k.val = k.val; omega
  have h1 : ∀ k : Fin 2048, ((cfg1.win 1).blk t).view.emb (ix2 o k)
      = ix2 ((((cfg1.win 3).blk t).view.emb (ix2 r o)) 1) k := fun k => by
    funext a; apply Fin.ext
    match a with
    | ⟨0, _⟩ => show win1_1.index t (0 : Fin 2) * 2048 + 1 * o.val = win1_3.index t (1 : Fin 2) * 2048 + 1 * o.val; omega
    | ⟨1, _⟩ => show win1_1.index t (1 : Fin 2) * 2048 + 1 * k.val = k.val; omega
  have h2 : ((cfg1.win 2).blk t).view.emb (ix2 (0 : Fin 1) o)
      = ix2 (0 : Fin 1) ((((cfg1.win 3).blk t).view.emb (ix2 r o)) 1) := by
    funext a; apply Fin.ext
    match a with
    | ⟨0, _⟩ => show win1_2.index t (0 : Fin 2) * 1 + 1 * 0 = 0; omega
    | ⟨1, _⟩ => show win1_2.index t (1 : Fin 2) * 2048 + 1 * o.val = win1_3.index t (1 : Fin 2) * 2048 + 1 * o.val; omega
  show (∑ k : Fin 2048, (show S16384x2048.Idx → EReal from V c main_v1) (((cfg1.win 0).blk t).view.emb (ix2 r k))
          * (show S2048x2048.Idx → EReal from V c main_v0) (((cfg1.win 1).blk t).view.emb (ix2 o k)))
      + (show S1x2048.Idx → EReal from V c main_v2) (((cfg1.win 2).blk t).view.emb (ix2 (0 : Fin 1) o))
    = (∑ k : Fin 2048, (show S16384x2048.Idx → EReal from V c main_v1) (ix2 ((((cfg1.win 3).blk t).view.emb (ix2 r o)) 0) k)
          * (show S2048x2048.Idx → EReal from V c main_v0) (ix2 ((((cfg1.win 3).blk t).view.emb (ix2 r o)) 1) k))
      + (show S1x2048.Idx → EReal from V c main_v2) (ix2 (0 : Fin 1) ((((cfg1.win 3).blk t).view.emb (ix2 r o)) 1))
  rw [h2]
  refine congrArg (· + _) (Finset.sum_congr rfl fun k _ => ?_)
  rw [h0 k, h1 k]
  rfl

/-- An index of the array is in point t's block iff each coordinate is in the block's range on its axis. -/
theorem mem_blk (t : Fin cfg1.N) (i : S16384x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v3).slice (win1_3.rect t)).set ↔ _
  rw [View.set_slice_whole, Rect.mem_set_unit]
  exact Iff.rfl

/-- The 32 blocks of 512 rows tile the array: row r is in block r / 512. -/
theorem cover (i : S16384x2048.Idx) :
    ∃ t : Fin cfg1.N, (cfg1.win 3).flush t = true ∧ i ∈ ((cfg1.win 3).blk t).view.set := by
  have hi0 : (i 0).val < 16384 := (i 0).isLt
  have hi1 : (i 1).val < 2048 := (i 1).isLt
  obtain ⟨t, ht⟩ := idx_onto ⟨(i 0).val / 512, by omega⟩
  have ht' : t.val = (i 0).val / 512 := ht
  obtain ⟨e00, e01, e10, e11, e20, e21, e30, e31⟩ := idx_facts t
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- After the region its output array holds the linear layer of the entry contents. -/
theorem final (c : Dev nD) : (dat1 V c).arrAt 3 cfg1.N = res V c :=
  (dat1 V c).arrAt_eq_of_cover 3 (res V c) (fun t _ => flushed_eq V c t) cover

end Cert.KernelIdeal.Linear

end
-- ==== Proof.Whole.lean ====
/-
  The idealized kernel program's result is the specification.

  The first region leaves the fake-quantized weight in its output array; the two reshapes before the second
  region view the activations [4, 4096, 2048] as a [16384, 2048] matrix (row 4096·b + t is the row (b, t)) and
  the bias [2048] as a one-row matrix; the second region leaves the linear layer of these three arrays in its
  output array; and the last reshape views that [16384, 2048] matrix as [4, 4096, 2048] again.  Reading the
  final array at (b, t, o) gives  Σ_k X(b, t, k) · Q(o, k) + B(o).
-/
import proofs.«112682_j22136261444314_2_alg».proof.Proof.KRun
import proofs.«112682_j22136261444314_2_alg».proof.Proof.Region0
import proofs.«112682_j22136261444314_2_alg».proof.Proof.Region1
import proofs.«112682_j22136261444314_2_alg».proof.Proof.Spec
import Idealize.ShloMosaic.Lib.StableHlo.Run
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- At the second region's entry the flattened activations' buffer holds the activations viewed as a matrix. -/
theorem entry_v1 (c : Dev nD) :
    V2 m ρ c main_v1 = shapeCast S16384x2048 (m ((c : Thread nD τ).loc main_arg0)) shapeCasts_S4x4096x2048_S16384x2048 := by
  show StableHlo.after hostOps1 (W1 m ρ c) (Proc.devRef .tc main_v1) = _
  after_results
  rw [W1_of_ne m ρ c main_arg0 (by decide)]
  rfl

/-- At the second region's entry the bias row's buffer holds the bias viewed as a one-row matrix. -/
theorem entry_v2 (c : Dev nD) :
    V2 m ρ c main_v2 = shapeCast S1x2048 (m ((c : Thread nD τ).loc main_arg2)) shapeCasts_S2048_S1x2048 := by
  show StableHlo.after hostOps1 (W1 m ρ c) (Proc.devRef .tc main_v2) = _
  after_results
  rw [W1_of_ne m ρ c main_arg2 (by decide)]
  rfl

/-- At the second region's entry the first region's output array holds the fake-quantized weight. -/
theorem entry_v0 (c : Dev nD) : V2 m ρ c main_v0 = Quant.dq m c := by
  show StableHlo.after hostOps1 (W1 m ρ c) (Proc.devRef .tc main_v0) = _
  after_results
  exact (W1_arr m ρ c 3).trans (Quant.final m ρ c)

/-- The program's result buffer ends at the second region's result viewed as [4, 4096, 2048]. -/
theorem tail_eq (c : Dev nD) :
    W4 m ρ c (Proc.devRef .tc main_v4)
      = shapeCast S4x4096x2048 (Linear.res (V2 m ρ) c) shapeCasts_S16384x2048_S4x4096x2048 := by
  show StableHlo.after hostOps2 (W3 m ρ c) (Proc.devRef .tc main_v4) = _
  after_results
  rw [show W3 m ρ c (Proc.devRef .tc main_v3) = Linear.res (V2 m ρ) c from
    (W3_arr m ρ c 3).trans (Linear.final (V2 m ρ) c)]
  rfl

/-- The program's result buffer ends at the specification's array of the launch contents. -/
theorem out_eq (c : Dev nD) :
    W4 m ρ c (Proc.devRef .tc main_v4)
      = Spec.out (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_eq]
  funext i
  obtain ⟨b, t, o, rfl⟩ : ∃ (b : Fin 4) (t : Fin 4096) (o : Fin 2048), i = ix3 b t o := ⟨i 0, i 1, i 2, eq_ix3 i⟩
  have hb : b.val < 4 := b.isLt
  have ht : t.val < 4096 := t.isLt
  have hrow : 4096 * b.val + t.val < 16384 := by omega
  refine (shapeCast_apply (Linear.res (V2 m ρ) c) shapeCasts_S16384x2048_S4x4096x2048 (ix3 b t o)
    (ix2 (⟨4096 * b.val + t.val, hrow⟩ : Fin 16384) o) (by
      show ((⟨2, ![16384, 2048]⟩ : Shape).rowMajor (ix2 (⟨4096 * b.val + t.val, hrow⟩ : Fin 16384) o)).val
        = ((⟨3, ![4, 4096, 2048]⟩ : Shape).rowMajor (ix3 b t o)).val
      rw [Shape.rowMajor_val_two, Shape.rowMajor_val_three]
      show (4096 * b.val + t.val) * 2048 + o.val = (b.val * 4096 + t.val) * 2048 + o.val
      omega)).trans ?_
  show (∑ k : Fin 2048, (show S16384x2048.Idx → EReal from V2 m ρ c main_v1) (ix2 (⟨4096 * b.val + t.val, hrow⟩ : Fin 16384) k)
        * (show S2048x2048.Idx → EReal from V2 m ρ c main_v0) (ix2 o k))
      + (show S1x2048.Idx → EReal from V2 m ρ c main_v2) (ix2 (0 : Fin 1) o)
    = Spec.outAt (m ((c : Thread nD τ).loc main_arg0)) (m ((c : Thread nD τ).loc main_arg1))
          (m ((c : Thread nD τ).loc main_arg2)) (m ((c : Thread nD τ).loc main_arg3)) (m ((c : Thread nD τ).loc main_arg4)) b t o
  rw [entry_v1, entry_v0, entry_v2]
  unfold Spec.outAt
  refine congrArg₂ (· + ·) (Finset.sum_congr rfl fun k _ => ?_) ?_
  · refine congrArg (· * _) ?_
    exact shapeCast_apply _ shapeCasts_S4x4096x2048_S16384x2048 (ix2 (⟨4096 * b.val + t.val, hrow⟩ : Fin 16384) k) (ix3 b t k) (by
      show ((⟨3, ![4, 4096, 2048]⟩ : Shape).rowMajor (ix3 b t k)).val
        = ((⟨2, ![16384, 2048]⟩ : Shape).rowMajor (ix2 (⟨4096 * b.val + t.val, hrow⟩ : Fin 16384) k)).val
      rw [Shape.rowMajor_val_two, Shape.rowMajor_val_three]
      show (b.val * 4096 + t.val) * 2048 + k.val = (4096 * b.val + t.val) * 2048 + k.val
      omega)
  · exact shapeCast_a_1a_apply _ shapeCasts_S2048_S1x2048 (0 : Fin 1) o

/-- Every weakly fair execution of the idealized kernel program terminates with its result at the specification's
    array of the launch contents and the argument arrays unchanged. -/
theorem run : θ_run defs (onTc (τ := τ) (main (F := Ideal))) ⟨m, fun _ => 0, ρ⟩ (fun r => ∀ c : Dev nD,
      r.2.mem ((c.tc : Thread nD τ).loc main_v4)
        = Spec.out (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (out_eq m ρ c), (h c).2⟩) (Out.run m ρ)

end Cert.KernelIdeal.Whole

end
-- ==== Proof.Ref.lean ====
/-
  The reference program's result is the specification.

  The reference fake-quantizes the whole weight at once — the scale and zero-point columns broadcast along the
  rows, the same division, shift, rounding to nearest even, clamp into [0, 255], shift back and product — and
  contracts the activations' last axis with the quantized weight's second axis, then adds the bias broadcast
  over the first two axes.  Read at an index (b, t, o) this is  Σ_k X(b, t, k) · Q(o, k) + B(o).
-/
import proofs.«112682_j22136261444314_2_alg».proof.Proof.Gen.ReferenceIdeal.Read
import proofs.«112682_j22136261444314_2_alg».proof.Proof.Spec

noncomputable section

namespace Cert.ReferenceIdeal.RefValue

open Cert.ReferenceIdeal Cert.ReferenceIdeal.Read
open Idealize.ShloMosaic Idealize.ShloMosaic.ValueIdx

/-- The quantized weight's entry (o, k) in the reference: the weight's entry fake-quantized with row o's scale and zero point. -/
theorem v9_at (x1 : (⟨S2048x2048, .f32⟩ : BufTy).Contents (Elt Ideal)) (x3 x4 : (⟨S2048x1, .f32⟩ : BufTy).Contents (Elt Ideal))
    (o k : Fin 2048) :
    val_main_v9 (F := Ideal) x1 x3 x4 (ix2 o k) = Spec.dqAt x1 x3 x4 o k := by
  have e : idx_main_v0 (ix2 o k) = ix2 o (0 : Fin 1) := funext fun a => Fin.ext (by
    match a with
    | ⟨0, _⟩ => rfl
    | ⟨1, _⟩ => rfl)
  rw [val_main_v9_apply, val_main_v8_apply, val_main_v7_apply, val_main_v6_apply, val_main_v5_apply,
    val_main_call1_v4_apply, val_main_call1_v3_apply, val_main_cst_0_apply, val_main_call1_v2_apply,
    val_main_call1_v1_apply, val_main_call1_v0_apply, val_main_cst_apply, val_main_v4_apply, val_main_v3_apply,
    val_main_v2_apply, val_main_v1_apply, val_main_v0_apply]
  show Spec.quant (x1 (ix2 o k)) (x3 (idx_main_v0 (ix2 o k))) (x4 (idx_main_v0 (ix2 o k))) = _
  rw [e]
  rfl

/-- The reference's result array is the specification's. -/
theorem result_eq (x0 : (⟨S4x4096x2048, .f32⟩ : BufTy).Contents (Elt Ideal)) (x1 : (⟨S2048x2048, .f32⟩ : BufTy).Contents (Elt Ideal))
    (x2 : (⟨S2048, .f32⟩ : BufTy).Contents (Elt Ideal)) (x3 x4 : (⟨S2048x1, .f32⟩ : BufTy).Contents (Elt Ideal)) :
    val_main_v13 (F := Ideal) x0 x1 x2 x3 x4 = Spec.out x0 x1 x2 x3 x4 := by
  funext i
  obtain ⟨b, t, o, rfl⟩ : ∃ (b : Fin 4) (t : Fin 4096) (o : Fin 2048), i = ix3 b t o := ⟨i 0, i 1, i 2, eq_ix3 i⟩
  rw [val_main_v13_apply, val_main_v10_apply, val_main_v12_apply, val_main_v11_apply]
  show (∑ k : Fin 2048, x0 (lidx_main_v10 (ix3 b t o) k) * val_main_v9 (F := Ideal) x1 x3 x4 (ridx_main_v10 (ix3 b t o) k))
      + x2 (idx_main_v11 (idx_main_v12 (ix3 b t o))) = Spec.outAt x0 x1 x2 x3 x4 b t o
  unfold Spec.outAt
  have eb : idx_main_v11 (idx_main_v12 (ix3 b t o)) = ix1 o := funext fun a => Fin.ext (by
    match a with
    | ⟨0, _⟩ => rfl)
  rw [eb]
  refine congrArg (· + x2 (ix1 o)) (Finset.sum_congr rfl fun k _ => ?_)
  have el : lidx_main_v10 (ix3 b t o) k = ix3 b t k := funext fun a => Fin.ext (by
    match a with
    | ⟨0, _⟩ => rfl
    | ⟨1, _⟩ => rfl
    | ⟨2, _⟩ => rfl)
  have er : ridx_main_v10 (ix3 b t o) k = ix2 o k := funext fun a => Fin.ext (by
    match a with
    | ⟨0, _⟩ => rfl
    | ⟨1, _⟩ => rfl)
  rw [el, er, v9_at]

end Cert.ReferenceIdeal.RefValue

end
-- ==== Proof.lean ====
/-
  The certificate's claims, assembled.

  The kernel program computes a linear layer with a fake-quantized weight in two kernel regions: the first
  quantizes the [2048, 2048] weight row by row (divide by the row's scale, shift by its zero point, round to
  nearest even, clamp into [0, 255], shift back, multiply by the scale), the second multiplies the activations,
  viewed as a [16384, 2048] matrix, by the transposed quantized weight and adds the bias.  The reference does the
  same on whole arrays.  Over the extended reals both results are, at every index (b, t, o),
      Σ_k X(b, t, k) · Q(o, k) + B(o),
  the same sum in the same order, so the two programs agree without any use of the inputs' finiteness.

  The three frame claims are the generated frame runs (the reference's is its generated run with the result
  dropped); the idealization rewrote no operation, so that claim is trivial; the value claim pairs the kernel
  program's run, read off the boundary contents of its five segments, with the reference's run read one
  operation at a time.
-/
import proofs.«112682_j22136261444314_2_alg».proof.Defs
import proofs.«112682_j22136261444314_2_alg».proof.Proof.Gen.Kernel
import proofs.«112682_j22136261444314_2_alg».proof.Proof.Gen.Kernel.Skeleton
import proofs.«112682_j22136261444314_2_alg».proof.Proof.Gen.Kernel.Launch
import proofs.«112682_j22136261444314_2_alg».proof.Proof.Gen.Kernel.Points
import proofs.«112682_j22136261444314_2_alg».proof.Proof.Gen.Kernel.Frame
import proofs.«112682_j22136261444314_2_alg».proof.Proof.Gen.KernelIdeal
import proofs.«112682_j22136261444314_2_alg».proof.Proof.Gen.KernelIdeal.Skeleton
import proofs.«112682_j22136261444314_2_alg».proof.Proof.Gen.KernelIdeal.Launch
import proofs.«112682_j22136261444314_2_alg».proof.Proof.Gen.KernelIdeal.Points
import proofs.«112682_j22136261444314_2_alg».proof.Proof.Gen.KernelIdeal.Frame
import proofs.«112682_j22136261444314_2_alg».proof.Proof.Gen.ReferenceIdeal
import proofs.«112682_j22136261444314_2_alg».proof.Proof.Gen.ReferenceIdeal.Run
import proofs.«112682_j22136261444314_2_alg».proof.Proof.Gen.ReferenceIdeal.Read
import proofs.«112682_j22136261444314_2_alg».proof.Proof.Gen.Pre_finite_inputs
import proofs.«112682_j22136261444314_2_alg».proof.Proof.Spec
import proofs.«112682_j22136261444314_2_alg».proof.Proof.Whole
import proofs.«112682_j22136261444314_2_alg».proof.Proof.Ref
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specification's array of the (agreeing) argument arrays. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
